-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S560x10000 : Shape := ⟨2, ![560, 10000]⟩
abbrev S560x128 : Shape := ⟨2, ![560, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S560x10000, .f32⟩
  | .local _ .vmem, ⟨3, _⟩ => ⟨S560x10000, .f32⟩
  | .local _ .vmem, ⟨4, _⟩ => ⟨S560x128, .f32⟩
  | .local _ .vmem, ⟨5, _⟩ => ⟨S560x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S560x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S560x10000_S560x10000_0_0 : ∀ a, (![0, 0] : Fin 2 → Nat) a + S560x10000.size a ≤ S560x10000.size a
  h_S560x10000 : 0 < S560x10000.numel
  inb_S560x128_S560x128_0_0 : ∀ a, (![0, 0] : Fin 2 → Nat) a + S560x128.size a ≤ S560x128.size a
  h_S560x128 : 0 < S560x128.numel
  dot_S10000x128_S128x128_S10000x128_1_1_0_0_n_n_wf : DotDims.WF S10000x128 S128x128 S10000x128 [1] [1] [0] [0] [] []
  dot_S560x10000_S10000x128_S560x128_1_0_0_1_n_n_wf : DotDims.WF S560x10000 S10000x128 S560x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S560x10000.size a < S10000x10000.size a
  hwx0_2 : ∀ i : grid0.Coords, EltTy.bits .f32 = 32 ∨ (Rect.unit (s := S10000x10000) (fun a => cc0_transform_2 i a * S560x10000.size a) (fun a => (Pipeline.Clip.of (cc0_transform_2 i a) (S560x10000.size a) (S10000x10000.size a)).extent (S560x10000.size a)) fun a => Pipeline.Clip.inb (Pipeline.Clip.ok_of (hstart0_2 i a))).WholeWords (EltTy.packing .f32)
  hwxs0_2 : ∀ i : grid0.Coords, EltTy.bits .f32 = 32 ∨ (Rect.unit (s := S560x10000) (fun _ => 0) (fun a => (Pipeline.Clip.of (cc0_transform_2 i a) (S560x10000.size a) (S10000x10000.size a)).extent (S560x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S560x128.size a < S10000x128.size a
  hwx0_3 : ∀ i : grid0.Coords, EltTy.bits .f32 = 32 ∨ (Rect.unit (s := S10000x128) (fun a => cc0_transform_3 i a * S560x128.size a) (fun a => (Pipeline.Clip.of (cc0_transform_3 i a) (S560x128.size a) (S10000x128.size a)).extent (S560x128.size a)) fun a => Pipeline.Clip.inb (Pipeline.Clip.ok_of (hstart0_3 i a))).WholeWords (EltTy.packing .f32)
  hwxs0_3 : ∀ i : grid0.Coords, EltTy.bits .f32 = 32 ∨ (Rect.unit (s := S560x128) (fun _ => 0) (fun a => (Pipeline.Clip.of (cc0_transform_3 i a) (S560x128.size a) (S10000x128.size a)).extent (S560x128.size a)) fun a => (Nat.zero_add _).trans_le (Pipeline.Clip.extent_le (Pipeline.Clip.ok_of (hstart0_3 i a)))).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S560x10000_S10000x128_S560x128_1_0_0_1_n_n : DotDims S560x10000 S10000x128 S560x128 where
  lhsContracting := [1]
  rhsContracting := [0]
  lhsNonContracting := [0]
  rhsNonContracting := [1]
  lhsBatch := []
  rhsBatch := []
  wf := dot_S560x10000_S10000x128_S560x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S560x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S560x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KB.Runs.lean ====
/-
  What the two control cases of the kernel body share.

  The body runs at eighteen grid points. At the first point (and only there) it computes the linear transform
  h = x · Wᵀ of the whole feature array and stores it into a scratch buffer that stays resident; at every point it
  multiplies the point's 560-row block of the adjacency matrix by the resident h and stores the 560 × 128 product
  into the output block. Stated here: the branch condition in closed form over the grid, the memrefs the body is
  called on, and the region invariant with the scratch buffer taken out of it as a memref.
-/
import proofs.«101243_g89764816486619_cont_sun_m_1084_16_alg».proof.Proof.Gen.Kernel.Frame
import proofs.«101243_g89764816486619_cont_sun_m_1084_16_alg».proof.Proof.Gen.Kernel.Skeleton

-- rectangles of the long axes (10000 rows) are walked coordinate by coordinate when a cover is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch condition -/

/-- The condition of the body's one conditional, as a function of the grid point: "this is point 0". -/
abbrev cond0 (i : grid0.Coords) : Prop :=
  (Scalar.cmpi .ne (Scalar.extui (Scalar.cmpi .eq (BitVec.ofNat 32 (i 0).val) 0#32)) 0#32) = 1#1

/-- It holds at the first point and at no other: decided over the eighteen points. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt (w : Fin cfg0.W) : ∀ t : Fin cfg0.N, cfg0.idle w (grid0.coords t) = false := fun _ => rfl

/-! ## The memrefs the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S560x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S560x128 .f32 := win0_3.stage (cfg0.slots t 3)
abbrev hs3 (t : Fin cfg0.N) : (ms3 t).IsWhole := hstage0_3 ((cfg0.slots t 3).cast nbuf0_3)
/-- The scratch buffer that keeps h between points. -/
abbrev scM : Memref sig .tc .vmem S10000x128 .f32 := Memref.whole cc0_scratch0
/-- The scratch buffer and one staging buffer of the output window as views: contents are stated through them. -/
abbrev VS : View sig .tc .vmem S10000x128 .f32 := scM.view
abbrev VO : View sig .tc .vmem S560x128 .f32 := (Memref.whole cc0_stg3_0 : Memref sig .tc .vmem S560x128 .f32).view

/-- The region invariant with the scratch buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KB.RunA.lean ====
/-
  The kernel body at the FIRST grid point: the linear transform h = x · Wᵀ is computed from the two resident input
  blocks and stored over the whole scratch buffer; then the point's block of the adjacency matrix is multiplied by
  what the scratch buffer now holds and the product stored over the whole output block. The two dead loads (of the
  scratch buffer before its store, of the output block before its store) read buffers at contents nothing names.
-/
import proofs.«101243_g89764816486619_cont_sun_m_1084_16_alg».proof.Proof.KB.Runs

-- rectangles of the long axes (10000 rows) are walked coordinate by coordinate when a cover is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's triple at the first point, on whole memrefs: the three inputs at their contents (handed back as they
    were), the output block and the scratch buffer at anything; they end with the listed pieces written (the
    witnesses are what the run finds). -/
noncomputable def kernelRun_A (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S560x10000 .f32) (harg3 : arg3.IsWhole) (arg4 : Memref sig .tc .vmem S560x128 .f32) (harg4 : arg4.IsWhole)
    (arg5 : Memref sig .tc .vmem S10000x128 .f32) (harg5 : arg5.IsWhole) (hc0 : cond0 i)
    (x0 : Vec F S10000x128 .f32) (x1 : Vec F S128x128 .f32) (x2 : Vec F S560x10000 .f32) :
    Σ' (L3 : List (View.Piece (Elt F) S560x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__fused_body i arg1 harg1 arg2 harg2 arg3 harg3 arg4 harg4 arg5 harg5) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%d4, %f4, -, HS⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Hand

end
-- ==== Proof.KB.RunB.lean ====
/-
  The kernel body at a LATER grid point: the scratch buffer already holds the linear transform h; the point's block
  of the adjacency matrix is multiplied by it and the product stored over the whole output block. The scratch buffer
  and the three input blocks are handed back as they were.
-/
import proofs.«101243_g89764816486619_cont_sun_m_1084_16_alg».proof.Proof.KB.Runs

-- rectangles of the long axes (10000 rows) are walked coordinate by coordinate when a cover is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's triple at a point after the first, on whole memrefs: the adjacency block and the scratch buffer at
    their contents, the two resident inputs (not read here) and the output block at anything; the output block ends
    with the listed pieces written. -/
noncomputable def kernelRun_B (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S560x10000 .f32) (harg3 : arg3.IsWhole) (arg4 : Memref sig .tc .vmem S560x128 .f32) (harg4 : arg4.IsWhole)
    (arg5 : Memref sig .tc .vmem S10000x128 .f32) (harg5 : arg5.IsWhole) (hc0 : ¬cond0 i)
    (x0 : Vec F S10000x128 .f32) (x1 : Vec F S128x128 .f32) (x2 : Vec F S560x10000 .f32) (xs : Vec F S10000x128 .f32) :
    { L3 : List (View.Piece (Elt F) S560x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__fused_body i arg1 harg1 arg2 harg2 arg3 harg3 arg4 harg4 arg5 harg5) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS

end Cert.Kernel.Hand

end
-- ==== Proof.KB.Body.lean ====
/-
  The proof data of the kernel's pipeline and its body obligation.

  What each staging buffer holds after the body at grid point t: the two resident inputs their (whole-array) blocks;
  the adjacency window the point's 560-row block, which at the last point overhangs the array by 80 rows — there the
  rows inside the array are named and the rest is whatever the transfer left; the output window the product of that
  buffer with h, the linear transform x · Wᵀ. Between points the scratch buffer holds h from the first point on:
  that is the region invariant. The obligation is proved once for any float instance from the two runs of the body;
  it is stated twice: with the output window's contents forgotten (enough for "the arguments end unchanged"), and
  exactly, given that the product's rows inside the array do not depend on the adjacency buffer's rows outside it.
-/
import proofs.«101243_g89764816486619_cont_sun_m_1084_16_alg».proof.Proof.KB.RunA
import proofs.«101243_g89764816486619_cont_sun_m_1084_16_alg».proof.Proof.KB.RunB
import Idealize.ShloMosaic.Lib.Pipeline.Value

-- rectangles of the long axes (10000 rows) are walked coordinate by coordinate when a cover is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave, as payloads -/

theorem hz2 : (![0, 0] : Fin 2 → Nat) = fun _ => 0 := funext fun a => by fin_cases a <;> rfl

section Pieces
variable (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S560x10000 .f32) (harg3 : arg3.IsWhole) (arg4 : Memref sig .tc .vmem S560x128 .f32) (harg4 : arg4.IsWhole)
    (arg5 : Memref sig .tc .vmem S10000x128 .f32) (harg5 : arg5.IsWhole)
    (x0 : Vec F S10000x128 .f32) (x1 : Vec F S128x128 .f32) (x2 : Vec F S560x10000 .f32) (xs : Vec F S10000x128 .f32)

/-- At the first point the one store into the output block covers it, -/
theorem coverA3 (hc0 : cond0 i) (y : S560x128.Idx) :
    ∃ pc ∈ (kernelRun_A (F := F) c i arg1 harg1 arg2 harg2 arg3 harg3 arg4 harg4 arg5 harg5 hc0 x0 x1 x2).1, y ∈ pc.1.set :=
  View.cover_of_tiledL (kernelRun_A (F := F) c i arg1 harg1 arg2 harg2 arg3 harg3 arg4 harg4 arg5 harg5 hc0 x0 x1 x2).1 S560x128.size (by sl_kernel_rfl) y
/-- and the one store into the scratch buffer covers it. -/
theorem coverAS (hc0 : cond0 i) (y : S10000x128.Idx) :
    ∃ pc ∈ (kernelRun_A (F := F) c i arg1 harg1 arg2 harg2 arg3 harg3 arg4 harg4 arg5 harg5 hc0 x0 x1 x2).2.1, y ∈ pc.1.set :=
  View.cover_of_tiledL (kernelRun_A (F := F) c i arg1 harg1 arg2 harg2 arg3 harg3 arg4 harg4 arg5 harg5 hc0 x0 x1 x2).2.1 S10000x128.size (by sl_kernel_rfl) y
/-- At a later point the one store into the output block covers it. -/
theorem coverB3 (hc0 : ¬cond0 i) (y : S560x128.Idx) :
    ∃ pc ∈ (kernelRun_B (F := F) c i arg1 harg1 arg2 harg2 arg3 harg3 arg4 harg4 arg5 harg5 hc0 x0 x1 x2 xs).1, y ∈ pc.1.set :=
  View.cover_of_tiledL (kernelRun_B (F := F) c i arg1 harg1 arg2 harg2 arg3 harg3 arg4 harg4 arg5 harg5 hc0 x0 x1 x2 xs).1 S560x128.size (by sl_kernel_rfl) y

/-- At the first point the scratch buffer ends holding h = x · Wᵀ of the two resident blocks, -/
theorem scratchA_eq (hc0 : cond0 i) :
    View.canon (kernelRun_A (F := F) c i arg1 harg1 arg2 harg2 arg3 harg3 arg4 harg4 arg5 harg5 hc0 x0 x1 x2).2.1 = k0_pay1 x0 x1 := by
  unfold kernelRun_A; dsimp only; sl_unfold_words
  rw [View.canon_unit_zero hz2]
  simp only [View.readAt_eq_ld, harg1.read_unread, harg2.read_unread, View.ld_unit_zero (S := S10000x128) hz2, View.ld_unit_zero (S := S128x128) hz2]
/-- and the output block the adjacency block times that h. -/
theorem outA_eq (hc0 : cond0 i) :
    View.canon (kernelRun_A (F := F) c i arg1 harg1 arg2 harg2 arg3 harg3 arg4 harg4 arg5 harg5 hc0 x0 x1 x2).1 = k0_pay2 x2 (k0_pay1 x0 x1) := by
  unfold kernelRun_A; dsimp only; sl_unfold_words
  rw [View.canon_unit_zero hz2]
  simp only [View.readAt_eq_ld, harg1.read_unread, harg2.read_unread, harg3.read_unread,
    View.ld_unit_zero (S := S10000x128) hz2, View.ld_unit_zero (S := S128x128) hz2, View.ld_unit_zero (S := S560x10000) hz2]
  rw [View.readCov_unit_zero (S := S10000x128) _ hz2]
/-- At a later point the output block ends holding the adjacency block times what the scratch buffer holds. -/
theorem outB_eq (hc0 : ¬cond0 i) :
    View.canon (kernelRun_B (F := F) c i arg1 harg1 arg2 harg2 arg3 harg3 arg4 harg4 arg5 harg5 hc0 x0 x1 x2 xs).1 = k0_pay2 x2 xs := by
  unfold kernelRun_B; dsimp only; sl_unfold_words
  rw [View.canon_unit_zero hz2]
  simp only [View.readAt_eq_ld, harg3.read_unread, harg5.read_unread, View.ld_unit_zero (S := S10000x128) hz2, View.ld_unit_zero (S := S560x10000) hz2]

end Pieces

/-! ## The proof data -/

/-- The first grid point. -/
def t₀ : Fin cfg0.N := ⟨0, by decide⟩

/-- h = x · Wᵀ, of the two resident inputs' blocks (the whole arrays) as the region finds them. -/
def hmat (c : Dev nD) : Vec F S10000x128 .f32 := k0_pay1 (iblk m c 0 t₀) (iblk m c 1 t₀)

/-- The adjacency window's staging buffer at point t when the rows the transfer does not move hold d: the point's
    block on the rows inside the array. -/
abbrev adjBuf (c : Dev nD) (t : Fin cfg0.N) (d : S560x10000.Idx → Elt F .f32) : Vec F S560x10000 .f32 :=
  (cfg0.win 2).fill (cfg0.grid.coords t) d (iblk m c 2 t)

/-- The region invariant before position n: before the first point the scratch buffer holds anything; afterwards h. -/
def PhiS (c : Dev nD) : (n : ℕ) → n ≤ cfg0.N → sProp 𝕄
  | 0, _ => Pipeline.ΦA spec0 c
  | _ + 1, _ => iprop(iprop(owns (c : Thread nD τ) scM fullShare (hmat m c)) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(iprop(owns (c : Thread nD τ) scM fullShare (hmat m c)) ∗ (∃ r, prngReg c r)) := by
  cases n with
  | zero => exact absurd rfl hz
  | succ n => rfl

/-- The proof data on core c: the arrays as the region finds them; after the body at point t the resident inputs'
    buffers at their blocks, the adjacency buffer at the point's block (filled out with the zero word where nothing
    is stated), the output buffer at that times h; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBuf m c t (fun _ => Scalar.ofBits .f32 0#32)
    | ⟨3, _⟩ => k0_pay2 (adjBuf m c t (fun _ => Scalar.ofBits .f32 0#32)) (hmat m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = adjBuf m c t (fun _ => Scalar.ofBits .f32 0#32) := by dsimp only [dats]
theorem after_3 (c : Dev nD) (t : Fin cfg0.N) :
    (dats m 0 c).after 3 t = k0_pay2 (adjBuf m c t (fun _ => Scalar.ofBits .f32 0#32)) (hmat m c) := by dsimp only [dats]

/-- The resident inputs' buffers hold their blocks at every point, fetched there or not; -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- the adjacency buffer, fetched at every point, the point's block on the rows the transfer moves. -/
theorem before_2 (c : Dev nD) (t : Fin cfg0.N) (d) : (dats m 0 c).before 2 t d = adjBuf m c t d := by
  rw [Dat.before_fetched _ 2 t (fetch0_2 t)]; rfl

/-! ## The body at a generic point -/

set_option maxHeartbeats 4000000 in
/-- The body at any point t, the adjacency buffer at any contents X2: it leaves the output buffer at X2 times h and the
    invariant of the next position. At the first point the invariant hands over the scratch buffer at anything and the
    run fills it with h; later it hands it over holding h and the run reads it. -/
theorem sound_core (c : Dev nD) (t : Fin cfg0.N) (X2 : Vec F S560x10000 .f32) (K : PUnit → sProp 𝕄) :
    iprop((dats m 0 c).Φ t.castSucc
        ∗ owns (c : Thread nD τ) (ms0 t) fullShare (iblk m c 0 t) ∗ owns (c : Thread nD τ) (ms1 t) fullShare (iblk m c 1 t)
        ∗ owns (c : Thread nD τ) (ms2 t) fullShare X2 ∗ (∃ d, owns (c : Thread nD τ) (ms3 t) fullShare d)
        ∗ (iprop((dats m 0 c).Φ t.succ
            ∗ owns (c : Thread nD τ) (ms0 t) fullShare (iblk m c 0 t) ∗ owns (c : Thread nD τ) (ms1 t) fullShare (iblk m c 1 t)
            ∗ owns (c : Thread nD τ) (ms2 t) fullShare X2 ∗ owns (c : Thread nD τ) (ms3 t) fullShare (k0_pay2 X2 (hmat m c))) -∗ K ⟨⟩))
      ⊢ wp frame (wpE (defs₀ (F := F)) Variants.none c none) Set.univ (bodyAt0 t) K := by
  unfold bodyAt0
  rw [show (dats m 0 c).Φ t.succ = PhiS m c (t.val + 1) t.isLt from rfl,
    PhiS_pos m c (t.val + 1) t.isLt (Nat.succ_ne_zero _), PhiS_castSucc m c t]
  by_cases hz : t.val = 0
  · obtain rfl : t = t₀ := Fin.ext hz
    rw [PhiS_zero m c _ _ hz, PhiA_eq]
    iintro ⟨⟨HS, Hg⟩, H0, H1, H2, H3, Hk⟩
    iapply ((kernelRun_A c (grid0.coords t₀) _ _ _ _ _ _ _ _ _ _ ((hcond0 t₀).mpr rfl) (iblk m c 0 t₀) (iblk m c 1 t₀) X2).2.2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, ⟨%es, HS⟩⟩
    iapply Hk
    isplitl [HS Hg]
    · isplitl [HS]
      · unfold owns; iexists _; isplitr
        swap; · iexact HS
        ipureintro
        rw [View.read_writes_eq_canon _ _ _ (coverAS c _ _ _ _ _ _ _ _ _ _ _ _ _ _ _)]
        exact scratchA_eq c _ _ _ _ _ _ _ _ _ _ _ _ _ _ _
      iexact Hg
    isplitl [H0]; · iexact H0
    isplitl [H1]; · iexact H1
    isplitl [H2]; · iexact H2
    unfold owns; iexists _; isplitr
    swap; · iexact H3
    ipureintro
    rw [View.read_writes_eq_canon _ _ _ (coverA3 c _ _ _ _ _ _ _ _ _ _ _ _ _ _ _)]
    exact outA_eq c _ _ _ _ _ _ _ _ _ _ _ _ _ _ _
  · rw [PhiS_pos m c _ _ hz]
    iintro ⟨⟨HS, Hg⟩, H0, H1, H2, H3, Hk⟩
    iapply ((kernelRun_B c (grid0.coords t) _ _ _ _ _ _ _ _ _ _ (fun h => hz ((hcond0 t).mp h)) (iblk m c 0 t) (iblk m c 1 t) X2 (hmat m c)).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    iapply Hk
    isplitl [HS Hg]
    · isplitl [HS]; · iexact HS
      iexact Hg
    isplitl [H0]; · iexact H0
    isplitl [H1]; · iexact H1
    isplitl [H2]; · iexact H2
    unfold owns; iexists _; isplitr
    swap; · iexact H3
    ipureintro
    rw [View.read_writes_eq_canon _ _ _ (coverB3 c _ _ _ _ _ _ _ _ _ _ _ _ _ _ _ _)]
    exact outB_eq c _ _ _ _ _ _ _ _ _ _ _ _ _ _ _ _

/-! ## The obligations -/

/-- The output window, whose contents the frame does not need. -/
def forgets : Fin 4 → Bool := fun w => w.val == 3

/-- What the adjacency buffer is handed back as: the point's block on the moved rows, as the obligation of a window
    whose last block overhangs asks. -/
theorem adj_back (c : Dev nD) (t : Fin cfg0.N) (d : S560x10000.Idx → Elt F .f32) :
    (cfg0.win 2).fill (cfg0.grid.coords t) d ((cfg0.win 2).cut (cfg0.grid.coords t) ((dats m 0 c).after 2 t)) = adjBuf m c t d := by
  rw [after_2]; unfold adjBuf; rw [Window.cut_fill]

set_option maxHeartbeats 4000000 in
/-- The body at point t with the output window forgotten, the windows one by one. -/
theorem sound_forget (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ X, owns (c : Thread nD τ) (ms3 t) fullShare X))
      ⊢ wp frame (wpE (defs₀ (F := F)) Variants.none c none) Set.univ (bodyAt0 t) (fun _ =>
          iprop((dats m 0 c).Φ t.succ ∗ (dats m 0 c).owesAt () t.succ
            ∗ owns (c : Thread nD τ) (ms0 t) fullShare ((dats m 0 c).after 0 t)
            ∗ owns (c : Thread nD τ) (ms1 t) fullShare ((dats m 0 c).after 1 t)
            ∗ (∃ d, owns (c : Thread nD τ) (ms2 t) fullShare
                ((cfg0.win 2).fill (cfg0.grid.coords t) d ((cfg0.win 2).cut (cfg0.grid.coords t) ((dats m 0 c).after 2 t))))
            ∗ (∃ X, owns (c : Thread nD τ) (ms3 t) fullShare X))) := by
  rw [show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_core m c t (adjBuf m c t d2) _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · rw [after_0]; iexact H0
  isplitl [H1]; · rw [after_1]; iexact H1
  isplitl [H2]
  · iexists d2; rw [adj_back m c t d2]; iexact H2
  iexists _; iexact H3

/-- The body obligation with the output window forgotten, at any float instance. -/
theorem body_obligation_forget (c : Dev nD) :
    BodyObligationLoose (dats (F := F) m 0 c) (defs₀ (F := F)) Variants.none () Set.univ forgets := fun t => by
  rw [bigSep_W0, bigSep_W0]
  exact sound_forget m c t

set_option maxHeartbeats 4000000 in
/-- The body at point t, exactly, GIVEN that on the rows of the output block inside the array the product does not
    depend on what the adjacency buffer holds on the rows the transfer does not move. -/
theorem sound_exact (c : Dev nD)
    (hloc : ∀ (t : Fin cfg0.N) (d : S560x10000.Idx → Elt F .f32),
      (cfg0.win 3).cut (cfg0.grid.coords t) (k0_pay2 (adjBuf m c t d) (hmat m c))
        = (cfg0.win 3).cut (cfg0.grid.coords t) ((dats m 0 c).after 3 t)) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (ms0 t) fullShare ((dats m 0 c).after 0 t)
            ∗ owns (c : Thread nD τ) (ms1 t) fullShare ((dats m 0 c).after 1 t)
            ∗ (∃ d, owns (c : Thread nD τ) (ms2 t) fullShare
                ((cfg0.win 2).fill (cfg0.grid.coords t) d ((cfg0.win 2).cut (cfg0.grid.coords t) ((dats m 0 c).after 2 t))))
            ∗ (∃ d, owns (c : Thread nD τ) (ms3 t) fullShare
                ((cfg0.win 3).fill (cfg0.grid.coords t) d ((cfg0.win 3).cut (cfg0.grid.coords t) ((dats m 0 c).after 3 t)))))) := by
  rw [show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_core m c t (adjBuf m c t d2) _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · rw [after_0]; iexact H0
  isplitl [H1]; · rw [after_1]; iexact H1
  isplitl [H2]
  · iexists d2; rw [adj_back m c t d2]; iexact H2
  iexists (k0_pay2 (adjBuf m c t d2) (hmat m c))
  rw [← hloc t d2, Window.fill_cut]; iexact H3

/-- The exact body obligation, under the same hypothesis. -/
theorem body_obligation_of (c : Dev nD)
    (hloc : ∀ (t : Fin cfg0.N) (d : S560x10000.Idx → Elt F .f32),
      (cfg0.win 3).cut (cfg0.grid.coords t) (k0_pay2 (adjBuf m c t d) (hmat m c))
        = (cfg0.win 3).cut (cfg0.grid.coords t) ((dats m 0 c).after 3 t)) :
    BodyObligationLoose (dats (F := F) m 0 c) (defs₀ (F := F)) Variants.none () Set.univ := fun t => by
  rw [bigSep_W0, bigSep_W0]
  exact sound_exact m c hloc t

/-! ## The invariant at the region's two ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 18 := N_0; omega), PhiA_eq]
  iintro ⟨HS, Hg⟩
  isplitl [HS]
  · iexists _; iexact HS
  iexact Hg

end Cert.Kernel.Hand

end
-- ==== Proof.KB.Run.lean ====
/-
  The kernel's runs. From the body obligation the launch theorem gives: every weakly fair execution terminates,
  nothing faults, and every array of the pipeline ends at what the proof data computes — the three inputs at their
  launch contents, the output with each point's block written back (at the last point its 480 rows inside the array).
  Two forms: with the output's contents forgotten, at any float instance (what the frame needs); and exact, given
  that the output rows inside the array do not depend on the adjacency buffer's rows outside it.
-/
import proofs.«101243_g89764816486619_cont_sun_m_1084_16_alg».proof.Proof.KB.Body

-- rectangles of the long axes (10000 rows) are walked coordinate by coordinate when a cover is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the output window forgotten. -/
theorem run_forget : θ_run defs (onTc (τ := τ) (main (F := F))) (s₀ m ρ)
    (Pipeline.RDat.FramePost (cfgs 0) (fun c => (dats m 0 c).toRForget forgets) (V m)) :=
  Pipeline.RDat.θ_run_frame_track cfgs (0 : Fin 1) launch0 defs₀ Variants.none (fun c => (dats m 0 c).toRForget forgets) m ρ main
    (hbody := fun c => (body_obligation_forget m c).toRForget)
    (hshare := fun c => ((dats m 0 c).toRForget forgets).share_full fun _ => rfl)
    (howed := fun _ _ => rfl) (V := V m) (hmain := hmain m Variants.none) (hA := A_eq m) (hin := hin m) (hout := hout m)

/-- The frame: the three argument arrays end as launched (an input window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 2 rfl _) _) ((h c).1 2)).trans ((A_eq m c 2).trans (V_main_arg1 m c)),
     (Eq.mp (congrFun (((dats m 0 c).toRForget forgets).ArrAt_in 1 rfl _) _) ((h c).1 1)).trans ((A_eq m c 1).trans (V_main_arg2 m c))⟩)
    (run_forget m ρ)

set_option backward.isDefEq.respectTransparency.types false in
/-- The exact run, given the row-locality of the product. -/
theorem run_exact
    (hloc : ∀ (c : Dev nD) (t : Fin cfg0.N) (d : S560x10000.Idx → Elt F .f32),
      (cfg0.win 3).cut (cfg0.grid.coords t) (k0_pay2 (adjBuf m c t d) (hmat m c))
        = (cfg0.win 3).cut (cfg0.grid.coords t) ((dats m 0 c).after 3 t)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation_of m c (hloc c))
    (hshare := fun c => (dats m 0 c).share_full fun _ => rfl)
    (howed := fun _ _ => rfl) (V := V m) (hmain := hmain m Variants.none) (hA := A_eq m) (hin := hin m) (hout := hout m)

end Cert.Kernel.Hand

end
-- ==== Proof.KI.Runs.lean ====
/-
  What the two control cases of the kernel body share.

  The body runs at eighteen grid points. At the first point (and only there) it computes the linear transform
  h = x · Wᵀ of the whole feature array and stores it into a scratch buffer that stays resident; at every point it
  multiplies the point's 560-row block of the adjacency matrix by the resident h and stores the 560 × 128 product
  into the output block. Stated here: the branch condition in closed form over the grid, the memrefs the body is
  called on, and the region invariant with the scratch buffer taken out of it as a memref.
-/
import proofs.«101243_g89764816486619_cont_sun_m_1084_16_alg».proof.Proof.Gen.KernelIdeal.Frame
import proofs.«101243_g89764816486619_cont_sun_m_1084_16_alg».proof.Proof.Gen.KernelIdeal.Skeleton

-- rectangles of the long axes (10000 rows) are walked coordinate by coordinate when a cover is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch condition -/

/-- The condition of the body's one conditional, as a function of the grid point: "this is point 0". -/
abbrev cond0 (i : grid0.Coords) : Prop :=
  (Scalar.cmpi .ne (Scalar.extui (Scalar.cmpi .eq (BitVec.ofNat 32 (i 0).val) 0#32)) 0#32) = 1#1

/-- It holds at the first point and at no other: decided over the eighteen points. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt (w : Fin cfg0.W) : ∀ t : Fin cfg0.N, cfg0.idle w (grid0.coords t) = false := fun _ => rfl

/-! ## The memrefs the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S560x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S560x128 .f32 := win0_3.stage (cfg0.slots t 3)
abbrev hs3 (t : Fin cfg0.N) : (ms3 t).IsWhole := hstage0_3 ((cfg0.slots t 3).cast nbuf0_3)
/-- The scratch buffer that keeps h between points. -/
abbrev scM : Memref sig .tc .vmem S10000x128 .f32 := Memref.whole cc0_scratch0
/-- The scratch buffer and one staging buffer of the output window as views: contents are stated through them. -/
abbrev VS : View sig .tc .vmem S10000x128 .f32 := scM.view
abbrev VO : View sig .tc .vmem S560x128 .f32 := (Memref.whole cc0_stg3_0 : Memref sig .tc .vmem S560x128 .f32).view

/-- The region invariant with the scratch buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunA.lean ====
/-
  The kernel body at the FIRST grid point: the linear transform h = x · Wᵀ is computed from the two resident input
  blocks and stored over the whole scratch buffer; then the point's block of the adjacency matrix is multiplied by
  what the scratch buffer now holds and the product stored over the whole output block. The two dead loads (of the
  scratch buffer before its store, of the output block before its store) read buffers at contents nothing names.
-/
import proofs.«101243_g89764816486619_cont_sun_m_1084_16_alg».proof.Proof.KI.Runs

-- rectangles of the long axes (10000 rows) are walked coordinate by coordinate when a cover is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's triple at the first point, on whole memrefs: the three inputs at their contents (handed back as they
    were), the output block and the scratch buffer at anything; they end with the listed pieces written (the
    witnesses are what the run finds). -/
noncomputable def kernelRun_A (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S560x10000 .f32) (harg3 : arg3.IsWhole) (arg4 : Memref sig .tc .vmem S560x128 .f32) (harg4 : arg4.IsWhole)
    (arg5 : Memref sig .tc .vmem S10000x128 .f32) (harg5 : arg5.IsWhole) (hc0 : cond0 i)
    (x0 : Vec F S10000x128 .f32) (x1 : Vec F S128x128 .f32) (x2 : Vec F S560x10000 .f32) :
    Σ' (L3 : List (View.Piece (Elt F) S560x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__fused_body i arg1 harg1 arg2 harg2 arg3 harg3 arg4 harg4 arg5 harg5) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%d4, %f4, -, HS⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Hand

end
-- ==== Proof.KI.RunB.lean ====
/-
  The kernel body at a LATER grid point: the scratch buffer already holds the linear transform h; the point's block
  of the adjacency matrix is multiplied by it and the product stored over the whole output block. The scratch buffer
  and the three input blocks are handed back as they were.
-/
import proofs.«101243_g89764816486619_cont_sun_m_1084_16_alg».proof.Proof.KI.Runs

-- rectangles of the long axes (10000 rows) are walked coordinate by coordinate when a cover is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's triple at a point after the first, on whole memrefs: the adjacency block and the scratch buffer at
    their contents, the two resident inputs (not read here) and the output block at anything; the output block ends
    with the listed pieces written. -/
noncomputable def kernelRun_B (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S560x10000 .f32) (harg3 : arg3.IsWhole) (arg4 : Memref sig .tc .vmem S560x128 .f32) (harg4 : arg4.IsWhole)
    (arg5 : Memref sig .tc .vmem S10000x128 .f32) (harg5 : arg5.IsWhole) (hc0 : ¬cond0 i)
    (x0 : Vec F S10000x128 .f32) (x1 : Vec F S128x128 .f32) (x2 : Vec F S560x10000 .f32) (xs : Vec F S10000x128 .f32) :
    { L3 : List (View.Piece (Elt F) S560x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__fused_body i arg1 harg1 arg2 harg2 arg3 harg3 arg4 harg4 arg5 harg5) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS

end Cert.KernelIdeal.Hand

end
-- ==== Proof.KI.Body.lean ====
/-
  The proof data of the kernel's pipeline and its body obligation.

  What each staging buffer holds after the body at grid point t: the two resident inputs their (whole-array) blocks;
  the adjacency window the point's 560-row block, which at the last point overhangs the array by 80 rows — there the
  rows inside the array are named and the rest is whatever the transfer left; the output window the product of that
  buffer with h, the linear transform x · Wᵀ. Between points the scratch buffer holds h from the first point on:
  that is the region invariant. The obligation is proved once for any float instance from the two runs of the body;
  it is stated twice: with the output window's contents forgotten (enough for "the arguments end unchanged"), and
  exactly, given that the product's rows inside the array do not depend on the adjacency buffer's rows outside it.
-/
import proofs.«101243_g89764816486619_cont_sun_m_1084_16_alg».proof.Proof.KI.RunA
import proofs.«101243_g89764816486619_cont_sun_m_1084_16_alg».proof.Proof.KI.RunB
import Idealize.ShloMosaic.Lib.Pipeline.Value

-- rectangles of the long axes (10000 rows) are walked coordinate by coordinate when a cover is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave, as payloads -/

theorem hz2 : (![0, 0] : Fin 2 → Nat) = fun _ => 0 := funext fun a => by fin_cases a <;> rfl

section Pieces
variable (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S560x10000 .f32) (harg3 : arg3.IsWhole) (arg4 : Memref sig .tc .vmem S560x128 .f32) (harg4 : arg4.IsWhole)
    (arg5 : Memref sig .tc .vmem S10000x128 .f32) (harg5 : arg5.IsWhole)
    (x0 : Vec F S10000x128 .f32) (x1 : Vec F S128x128 .f32) (x2 : Vec F S560x10000 .f32) (xs : Vec F S10000x128 .f32)

/-- At the first point the one store into the output block covers it, -/
theorem coverA3 (hc0 : cond0 i) (y : S560x128.Idx) :
    ∃ pc ∈ (kernelRun_A (F := F) c i arg1 harg1 arg2 harg2 arg3 harg3 arg4 harg4 arg5 harg5 hc0 x0 x1 x2).1, y ∈ pc.1.set :=
  View.cover_of_tiledL (kernelRun_A (F := F) c i arg1 harg1 arg2 harg2 arg3 harg3 arg4 harg4 arg5 harg5 hc0 x0 x1 x2).1 S560x128.size (by sl_kernel_rfl) y
/-- and the one store into the scratch buffer covers it. -/
theorem coverAS (hc0 : cond0 i) (y : S10000x128.Idx) :
    ∃ pc ∈ (kernelRun_A (F := F) c i arg1 harg1 arg2 harg2 arg3 harg3 arg4 harg4 arg5 harg5 hc0 x0 x1 x2).2.1, y ∈ pc.1.set :=
  View.cover_of_tiledL (kernelRun_A (F := F) c i arg1 harg1 arg2 harg2 arg3 harg3 arg4 harg4 arg5 harg5 hc0 x0 x1 x2).2.1 S10000x128.size (by sl_kernel_rfl) y
/-- At a later point the one store into the output block covers it. -/
theorem coverB3 (hc0 : ¬cond0 i) (y : S560x128.Idx) :
    ∃ pc ∈ (kernelRun_B (F := F) c i arg1 harg1 arg2 harg2 arg3 harg3 arg4 harg4 arg5 harg5 hc0 x0 x1 x2 xs).1, y ∈ pc.1.set :=
  View.cover_of_tiledL (kernelRun_B (F := F) c i arg1 harg1 arg2 harg2 arg3 harg3 arg4 harg4 arg5 harg5 hc0 x0 x1 x2 xs).1 S560x128.size (by sl_kernel_rfl) y

/-- At the first point the scratch buffer ends holding h = x · Wᵀ of the two resident blocks, -/
theorem scratchA_eq (hc0 : cond0 i) :
    View.canon (kernelRun_A (F := F) c i arg1 harg1 arg2 harg2 arg3 harg3 arg4 harg4 arg5 harg5 hc0 x0 x1 x2).2.1 = k0_pay1 x0 x1 := by
  unfold kernelRun_A; dsimp only; sl_unfold_words
  rw [View.canon_unit_zero hz2]
  simp only [View.readAt_eq_ld, harg1.read_unread, harg2.read_unread, View.ld_unit_zero (S := S10000x128) hz2, View.ld_unit_zero (S := S128x128) hz2]
/-- and the output block the adjacency block times that h. -/
theorem outA_eq (hc0 : cond0 i) :
    View.canon (kernelRun_A (F := F) c i arg1 harg1 arg2 harg2 arg3 harg3 arg4 harg4 arg5 harg5 hc0 x0 x1 x2).1 = k0_pay2 x2 (k0_pay1 x0 x1) := by
  unfold kernelRun_A; dsimp only; sl_unfold_words
  rw [View.canon_unit_zero hz2]
  simp only [View.readAt_eq_ld, harg1.read_unread, harg2.read_unread, harg3.read_unread,
    View.ld_unit_zero (S := S10000x128) hz2, View.ld_unit_zero (S := S128x128) hz2, View.ld_unit_zero (S := S560x10000) hz2]
  rw [View.readCov_unit_zero (S := S10000x128) _ hz2]
/-- At a later point the output block ends holding the adjacency block times what the scratch buffer holds. -/
theorem outB_eq (hc0 : ¬cond0 i) :
    View.canon (kernelRun_B (F := F) c i arg1 harg1 arg2 harg2 arg3 harg3 arg4 harg4 arg5 harg5 hc0 x0 x1 x2 xs).1 = k0_pay2 x2 xs := by
  unfold kernelRun_B; dsimp only; sl_unfold_words
  rw [View.canon_unit_zero hz2]
  simp only [View.readAt_eq_ld, harg3.read_unread, harg5.read_unread, View.ld_unit_zero (S := S10000x128) hz2, View.ld_unit_zero (S := S560x10000) hz2]

end Pieces

/-! ## The proof data -/

/-- The first grid point. -/
def t₀ : Fin cfg0.N := ⟨0, by decide⟩

/-- h = x · Wᵀ, of the two resident inputs' blocks (the whole arrays) as the region finds them. -/
def hmat (c : Dev nD) : Vec F S10000x128 .f32 := k0_pay1 (iblk m c 0 t₀) (iblk m c 1 t₀)

/-- The adjacency window's staging buffer at point t when the rows the transfer does not move hold d: the point's
    block on the rows inside the array. -/
abbrev adjBuf (c : Dev nD) (t : Fin cfg0.N) (d : S560x10000.Idx → Elt F .f32) : Vec F S560x10000 .f32 :=
  (cfg0.win 2).fill (cfg0.grid.coords t) d (iblk m c 2 t)

/-- The region invariant before position n: before the first point the scratch buffer holds anything; afterwards h. -/
def PhiS (c : Dev nD) : (n : ℕ) → n ≤ cfg0.N → sProp 𝕄
  | 0, _ => Pipeline.ΦA spec0 c
  | _ + 1, _ => iprop(iprop(owns (c : Thread nD τ) scM fullShare (hmat m c)) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(iprop(owns (c : Thread nD τ) scM fullShare (hmat m c)) ∗ (∃ r, prngReg c r)) := by
  cases n with
  | zero => exact absurd rfl hz
  | succ n => rfl

/-- The proof data on core c: the arrays as the region finds them; after the body at point t the resident inputs'
    buffers at their blocks, the adjacency buffer at the point's block (filled out with the zero word where nothing
    is stated), the output buffer at that times h; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBuf m c t (fun _ => Scalar.ofBits .f32 0#32)
    | ⟨3, _⟩ => k0_pay2 (adjBuf m c t (fun _ => Scalar.ofBits .f32 0#32)) (hmat m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = adjBuf m c t (fun _ => Scalar.ofBits .f32 0#32) := by dsimp only [dats]
theorem after_3 (c : Dev nD) (t : Fin cfg0.N) :
    (dats m 0 c).after 3 t = k0_pay2 (adjBuf m c t (fun _ => Scalar.ofBits .f32 0#32)) (hmat m c) := by dsimp only [dats]

/-- The resident inputs' buffers hold their blocks at every point, fetched there or not; -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- the adjacency buffer, fetched at every point, the point's block on the rows the transfer moves. -/
theorem before_2 (c : Dev nD) (t : Fin cfg0.N) (d) : (dats m 0 c).before 2 t d = adjBuf m c t d := by
  rw [Dat.before_fetched _ 2 t (fetch0_2 t)]; rfl

/-! ## The body at a generic point -/

set_option maxHeartbeats 4000000 in
/-- The body at any point t, the adjacency buffer at any contents X2: it leaves the output buffer at X2 times h and the
    invariant of the next position. At the first point the invariant hands over the scratch buffer at anything and the
    run fills it with h; later it hands it over holding h and the run reads it. -/
theorem sound_core (c : Dev nD) (t : Fin cfg0.N) (X2 : Vec F S560x10000 .f32) (K : PUnit → sProp 𝕄) :
    iprop((dats m 0 c).Φ t.castSucc
        ∗ owns (c : Thread nD τ) (ms0 t) fullShare (iblk m c 0 t) ∗ owns (c : Thread nD τ) (ms1 t) fullShare (iblk m c 1 t)
        ∗ owns (c : Thread nD τ) (ms2 t) fullShare X2 ∗ (∃ d, owns (c : Thread nD τ) (ms3 t) fullShare d)
        ∗ (iprop((dats m 0 c).Φ t.succ
            ∗ owns (c : Thread nD τ) (ms0 t) fullShare (iblk m c 0 t) ∗ owns (c : Thread nD τ) (ms1 t) fullShare (iblk m c 1 t)
            ∗ owns (c : Thread nD τ) (ms2 t) fullShare X2 ∗ owns (c : Thread nD τ) (ms3 t) fullShare (k0_pay2 X2 (hmat m c))) -∗ K ⟨⟩))
      ⊢ wp frame (wpE (defs₀ (F := F)) Variants.none c none) Set.univ (bodyAt0 t) K := by
  unfold bodyAt0
  rw [show (dats m 0 c).Φ t.succ = PhiS m c (t.val + 1) t.isLt from rfl,
    PhiS_pos m c (t.val + 1) t.isLt (Nat.succ_ne_zero _), PhiS_castSucc m c t]
  by_cases hz : t.val = 0
  · obtain rfl : t = t₀ := Fin.ext hz
    rw [PhiS_zero m c _ _ hz, PhiA_eq]
    iintro ⟨⟨HS, Hg⟩, H0, H1, H2, H3, Hk⟩
    iapply ((kernelRun_A c (grid0.coords t₀) _ _ _ _ _ _ _ _ _ _ ((hcond0 t₀).mpr rfl) (iblk m c 0 t₀) (iblk m c 1 t₀) X2).2.2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, ⟨%es, HS⟩⟩
    iapply Hk
    isplitl [HS Hg]
    · isplitl [HS]
      · unfold owns; iexists _; isplitr
        swap; · iexact HS
        ipureintro
        rw [View.read_writes_eq_canon _ _ _ (coverAS c _ _ _ _ _ _ _ _ _ _ _ _ _ _ _)]
        exact scratchA_eq c _ _ _ _ _ _ _ _ _ _ _ _ _ _ _
      iexact Hg
    isplitl [H0]; · iexact H0
    isplitl [H1]; · iexact H1
    isplitl [H2]; · iexact H2
    unfold owns; iexists _; isplitr
    swap; · iexact H3
    ipureintro
    rw [View.read_writes_eq_canon _ _ _ (coverA3 c _ _ _ _ _ _ _ _ _ _ _ _ _ _ _)]
    exact outA_eq c _ _ _ _ _ _ _ _ _ _ _ _ _ _ _
  · rw [PhiS_pos m c _ _ hz]
    iintro ⟨⟨HS, Hg⟩, H0, H1, H2, H3, Hk⟩
    iapply ((kernelRun_B c (grid0.coords t) _ _ _ _ _ _ _ _ _ _ (fun h => hz ((hcond0 t).mp h)) (iblk m c 0 t) (iblk m c 1 t) X2 (hmat m c)).2 Set.univ _)
    isplitl [H0]; · iexact H0
    isplitl [H1]; · iexact H1
    isplitl [H2]; · iexact H2
    isplitl [H3]; · iexact H3
    isplitl [HS]; · iexact HS
    iintro ⟨H0, H1, H2, ⟨%e3, H3⟩, HS⟩
    iapply Hk
    isplitl [HS Hg]
    · isplitl [HS]; · iexact HS
      iexact Hg
    isplitl [H0]; · iexact H0
    isplitl [H1]; · iexact H1
    isplitl [H2]; · iexact H2
    unfold owns; iexists _; isplitr
    swap; · iexact H3
    ipureintro
    rw [View.read_writes_eq_canon _ _ _ (coverB3 c _ _ _ _ _ _ _ _ _ _ _ _ _ _ _ _)]
    exact outB_eq c _ _ _ _ _ _ _ _ _ _ _ _ _ _ _ _

/-! ## The obligations -/

/-- The output window, whose contents the frame does not need. -/
def forgets : Fin 4 → Bool := fun w => w.val == 3

/-- What the adjacency buffer is handed back as: the point's block on the moved rows, as the obligation of a window
    whose last block overhangs asks. -/
theorem adj_back (c : Dev nD) (t : Fin cfg0.N) (d : S560x10000.Idx → Elt F .f32) :
    (cfg0.win 2).fill (cfg0.grid.coords t) d ((cfg0.win 2).cut (cfg0.grid.coords t) ((dats m 0 c).after 2 t)) = adjBuf m c t d := by
  rw [after_2]; unfold adjBuf; rw [Window.cut_fill]

set_option maxHeartbeats 4000000 in
/-- The body at point t with the output window forgotten, the windows one by one. -/
theorem sound_forget (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ X, owns (c : Thread nD τ) (ms3 t) fullShare X))
      ⊢ wp frame (wpE (defs₀ (F := F)) Variants.none c none) Set.univ (bodyAt0 t) (fun _ =>
          iprop((dats m 0 c).Φ t.succ ∗ (dats m 0 c).owesAt () t.succ
            ∗ owns (c : Thread nD τ) (ms0 t) fullShare ((dats m 0 c).after 0 t)
            ∗ owns (c : Thread nD τ) (ms1 t) fullShare ((dats m 0 c).after 1 t)
            ∗ (∃ d, owns (c : Thread nD τ) (ms2 t) fullShare
                ((cfg0.win 2).fill (cfg0.grid.coords t) d ((cfg0.win 2).cut (cfg0.grid.coords t) ((dats m 0 c).after 2 t))))
            ∗ (∃ X, owns (c : Thread nD τ) (ms3 t) fullShare X))) := by
  rw [show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_core m c t (adjBuf m c t d2) _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · rw [after_0]; iexact H0
  isplitl [H1]; · rw [after_1]; iexact H1
  isplitl [H2]
  · iexists d2; rw [adj_back m c t d2]; iexact H2
  iexists _; iexact H3

/-- The body obligation with the output window forgotten, at any float instance. -/
theorem body_obligation_forget (c : Dev nD) :
    BodyObligationLoose (dats (F := F) m 0 c) (defs₀ (F := F)) Variants.none () Set.univ forgets := fun t => by
  rw [bigSep_W0, bigSep_W0]
  exact sound_forget m c t

set_option maxHeartbeats 4000000 in
/-- The body at point t, exactly, GIVEN that on the rows of the output block inside the array the product does not
    depend on what the adjacency buffer holds on the rows the transfer does not move. -/
theorem sound_exact (c : Dev nD)
    (hloc : ∀ (t : Fin cfg0.N) (d : S560x10000.Idx → Elt F .f32),
      (cfg0.win 3).cut (cfg0.grid.coords t) (k0_pay2 (adjBuf m c t d) (hmat m c))
        = (cfg0.win 3).cut (cfg0.grid.coords t) ((dats m 0 c).after 3 t)) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (ms0 t) fullShare ((dats m 0 c).after 0 t)
            ∗ owns (c : Thread nD τ) (ms1 t) fullShare ((dats m 0 c).after 1 t)
            ∗ (∃ d, owns (c : Thread nD τ) (ms2 t) fullShare
                ((cfg0.win 2).fill (cfg0.grid.coords t) d ((cfg0.win 2).cut (cfg0.grid.coords t) ((dats m 0 c).after 2 t))))
            ∗ (∃ d, owns (c : Thread nD τ) (ms3 t) fullShare
                ((cfg0.win 3).fill (cfg0.grid.coords t) d ((cfg0.win 3).cut (cfg0.grid.coords t) ((dats m 0 c).after 3 t)))))) := by
  rw [show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_core m c t (adjBuf m c t d2) _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · rw [after_0]; iexact H0
  isplitl [H1]; · rw [after_1]; iexact H1
  isplitl [H2]
  · iexists d2; rw [adj_back m c t d2]; iexact H2
  iexists (k0_pay2 (adjBuf m c t d2) (hmat m c))
  rw [← hloc t d2, Window.fill_cut]; iexact H3

/-- The exact body obligation, under the same hypothesis. -/
theorem body_obligation_of (c : Dev nD)
    (hloc : ∀ (t : Fin cfg0.N) (d : S560x10000.Idx → Elt F .f32),
      (cfg0.win 3).cut (cfg0.grid.coords t) (k0_pay2 (adjBuf m c t d) (hmat m c))
        = (cfg0.win 3).cut (cfg0.grid.coords t) ((dats m 0 c).after 3 t)) :
    BodyObligationLoose (dats (F := F) m 0 c) (defs₀ (F := F)) Variants.none () Set.univ := fun t => by
  rw [bigSep_W0, bigSep_W0]
  exact sound_exact m c hloc t

/-! ## The invariant at the region's two ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 18 := N_0; omega), PhiA_eq]
  iintro ⟨HS, Hg⟩
  isplitl [HS]
  · iexists _; iexact HS
  iexact Hg

end Cert.KernelIdeal.Hand

end
-- ==== Proof.KI.Run.lean ====
/-
  The kernel's runs. From the body obligation the launch theorem gives: every weakly fair execution terminates,
  nothing faults, and every array of the pipeline ends at what the proof data computes — the three inputs at their
  launch contents, the output with each point's block written back (at the last point its 480 rows inside the array).
  Two forms: with the output's contents forgotten, at any float instance (what the frame needs); and exact, given
  that the output rows inside the array do not depend on the adjacency buffer's rows outside it.
-/
import proofs.«101243_g89764816486619_cont_sun_m_1084_16_alg».proof.Proof.KI.Body

-- rectangles of the long axes (10000 rows) are walked coordinate by coordinate when a cover is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the output window forgotten. -/
theorem run_forget : θ_run defs (onTc (τ := τ) (main (F := F))) (s₀ m ρ)
    (Pipeline.RDat.FramePost (cfgs 0) (fun c => (dats m 0 c).toRForget forgets) (V m)) :=
  Pipeline.RDat.θ_run_frame_track cfgs (0 : Fin 1) launch0 defs₀ Variants.none (fun c => (dats m 0 c).toRForget forgets) m ρ main
    (hbody := fun c => (body_obligation_forget m c).toRForget)
    (hshare := fun c => ((dats m 0 c).toRForget forgets).share_full fun _ => rfl)
    (howed := fun _ _ => rfl) (V := V m) (hmain := hmain m Variants.none) (hA := A_eq m) (hin := hin m) (hout := hout m)

/-- The frame: the three argument arrays end as launched (an input window's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 2 rfl _) _) ((h c).1 2)).trans ((A_eq m c 2).trans (V_main_arg1 m c)),
     (Eq.mp (congrFun (((dats m 0 c).toRForget forgets).ArrAt_in 1 rfl _) _) ((h c).1 1)).trans ((A_eq m c 1).trans (V_main_arg2 m c))⟩)
    (run_forget m ρ)

set_option backward.isDefEq.respectTransparency.types false in
/-- The exact run, given the row-locality of the product. -/
theorem run_exact
    (hloc : ∀ (c : Dev nD) (t : Fin cfg0.N) (d : S560x10000.Idx → Elt F .f32),
      (cfg0.win 3).cut (cfg0.grid.coords t) (k0_pay2 (adjBuf m c t d) (hmat m c))
        = (cfg0.win 3).cut (cfg0.grid.coords t) ((dats m 0 c).after 3 t)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation_of m c (hloc c))
    (hshare := fun c => (dats m 0 c).share_full fun _ => rfl)
    (howed := fun _ _ => rfl) (V := V m) (hmain := hmain m Variants.none) (hA := A_eq m) (hin := hin m) (hout := hout m)

end Cert.KernelIdeal.Hand

end
-- ==== Proof.Spec.lean ====
/-
  A graph-convolution layer as one function of its three argument arrays.

  With features `x` (10000 nodes by 128 input features), an adjacency array `adj` (10000 by 10000) and a weight array
  `w` (128 output features by 128 input features), the layer's value is `adj · (x · wᵀ)`. It is stated entry by entry
  over the extended reals: the linear map first,

    lin x w (j, c) = ∑ k, x (j, k) · w (c, k),

  and then the aggregation over the nodes,

    G x adj w (p, c) = ∑ j, adj (p, j) · lin x w (j, c).

  A block of 560 rows of the aggregation is the product of a 560 by 10000 block of `adj` with the whole of `lin x w`;
  a row of that product depends only on the same row of the block.
-/
import Idealize.ShloMosaic.PureOps.Ideal.Laws
import Idealize.ShloMosaic.Lib.ValueIdx

noncomputable section

namespace Cert.Gcn

open Idealize.ShloMosaic Idealize.ShloMosaic.ValueIdx
open scoped BigOperators

/-- Node features, and every array of that extent: 10000 by 128. -/
abbrev SX : Shape := ⟨2, ![10000, 128]⟩
/-- The adjacency array: 10000 by 10000. -/
abbrev SA : Shape := ⟨2, ![10000, 10000]⟩
/-- The weights: 128 output features by 128 input features. -/
abbrev SW : Shape := ⟨2, ![128, 128]⟩
/-- A block of 560 rows of the adjacency array. -/
abbrev SB : Shape := ⟨2, ![560, 10000]⟩
/-- A block of 560 rows of the result. -/
abbrev SO : Shape := ⟨2, ![560, 128]⟩

/-- The linear map `x · wᵀ`: node `j`'s output feature `c` is the inner product of `x`'s row `j` with `w`'s row `c`. -/
def lin (x : SX.Idx → EReal) (w : SW.Idx → EReal) : SX.Idx → EReal :=
  fun i => ∑ k : Fin 128, x (ix2 (n0 := 10000) (i 0) k) * w (ix2 (n0 := 128) (i 1) k)

theorem lin_apply (x : SX.Idx → EReal) (w : SW.Idx → EReal) (j : Fin 10000) (c : Fin 128) :
    lin x w (ix2 j c) = ∑ k : Fin 128, x (ix2 j k) * w (ix2 c k) := rfl

/-- The layer: node `p`'s output feature `c` is the `adj`-weighted sum over the nodes `j` of `lin x w (j, c)`. -/
def G (x : SX.Idx → EReal) (adj : SA.Idx → EReal) (w : SW.Idx → EReal) : SX.Idx → EReal :=
  fun i => ∑ j : Fin 10000, adj (ix2 (n0 := 10000) (i 0) j) * lin x w (ix2 j (n1 := 128) (i 1))

theorem G_apply (x : SX.Idx → EReal) (adj : SA.Idx → EReal) (w : SW.Idx → EReal) (p : Fin 10000) (c : Fin 128) :
    G x adj w (ix2 p c) = ∑ j : Fin 10000, adj (ix2 p j) * lin x w (ix2 j c) := rfl

/-- A 560-row block `a` of an adjacency array times a whole 10000 by 128 array `h`. -/
def blockMul (a : SB.Idx → EReal) (h : SX.Idx → EReal) : SO.Idx → EReal :=
  fun i => ∑ j : Fin 10000, a (ix2 (n0 := 560) (i 0) j) * h (ix2 j (n1 := 128) (i 1))

theorem blockMul_apply (a : SB.Idx → EReal) (h : SX.Idx → EReal) (r : Fin 560) (c : Fin 128) :
    blockMul a h (ix2 r c) = ∑ j : Fin 10000, a (ix2 r j) * h (ix2 j c) := rfl

/-- Row locality: row `r` of the block product reads only row `r` of the block. -/
theorem blockMul_row (a a' : SB.Idx → EReal) (h : SX.Idx → EReal) (r : Fin 560)
    (hrow : ∀ j : Fin 10000, a (ix2 r j) = a' (ix2 r j)) (c : Fin 128) :
    blockMul a h (ix2 r c) = blockMul a' h (ix2 r c) := by
  rw [blockMul_apply, blockMul_apply]
  exact Finset.sum_congr rfl fun j _ => by rw [hrow j]

end Cert.Gcn

end
-- ==== Proof.RefValue.lean ====
/-
  The reference program's result is the graph-convolution layer `G`.

  The reference transposes the weights, multiplies the features by the transposed weights and multiplies the adjacency
  array by that product. Read at an entry `(p, c)`: the outer product is `∑ j, adj (p, j) · h (j, c)`, the inner one is
  `h (j, c) = ∑ k, x (j, k) · wᵀ (k, c)`, and the transposed weights at `(k, c)` are the weights at `(c, k)`. That is
  `G x adj w (p, c)` term by term.
-/
import proofs.«101243_g89764816486619_cont_sun_m_1084_16_alg».proof.Proof.Spec
import proofs.«101243_g89764816486619_cont_sun_m_1084_16_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read
open scoped BigOperators

/-- The transposed weights at `(k, c)` are the weights at `(c, k)`. -/
theorem transposed_idx (k c : Fin 128) : idx_main_v0 (ix2 k c) = ix2 c k :=
  funext fun a => Fin.ext (by match a with | ⟨0, _⟩ => rfl | ⟨1, _⟩ => rfl)

/-- The first product reads the features at `(j, k)`. -/
theorem lin_lidx (j : Fin 10000) (c k : Fin 128) : lidx_main_v1 (ix2 j c) k = ix2 j k :=
  funext fun a => Fin.ext (by match a with | ⟨0, _⟩ => rfl | ⟨1, _⟩ => rfl)

/-- The first product reads the transposed weights at `(k, c)`. -/
theorem lin_ridx (j : Fin 10000) (c k : Fin 128) : ridx_main_v1 (ix2 j c) k = ix2 k c :=
  funext fun a => Fin.ext (by match a with | ⟨0, _⟩ => rfl | ⟨1, _⟩ => rfl)

/-- The second product reads the adjacency array at `(p, j)`. -/
theorem agg_lidx (p : Fin 10000) (c : Fin 128) (j : Fin 10000) : lidx_main_v2 (ix2 p c) j = ix2 p j :=
  funext fun a => Fin.ext (by match a with | ⟨0, _⟩ => rfl | ⟨1, _⟩ => rfl)

/-- The second product reads the first product at `(j, c)`. -/
theorem agg_ridx (p : Fin 10000) (c : Fin 128) (j : Fin 10000) : ridx_main_v2 (ix2 p c) j = ix2 j c :=
  funext fun a => Fin.ext (by match a with | ⟨0, _⟩ => rfl | ⟨1, _⟩ => rfl)

/-- The first product is the linear map `x · wᵀ`. -/
theorem val_lin (x : FVec Ideal S10000x128 .f32) (w : FVec Ideal S128x128 .f32) :
    val_main_v1 (F := Ideal) x w = Cert.Gcn.lin x w := by
  funext i
  obtain ⟨j, c, rfl⟩ : ∃ (j : Fin 10000) (c : Fin 128), i = ix2 j c := ⟨i 0, i 1, eq_ix2 i⟩
  rw [val_main_v1_apply, Cert.Gcn.lin_apply]
  refine Finset.sum_congr rfl fun k _ => ?_
  rw [lin_lidx, lin_ridx, val_main_v0_apply, transposed_idx]

/-- The last stage is the layer. -/
theorem val_eq_G (x : FVec Ideal S10000x128 .f32) (adj : FVec Ideal S10000x10000 .f32) (w : FVec Ideal S128x128 .f32) :
    val_main_v2 (F := Ideal) x adj w = Cert.Gcn.G x adj w := by
  funext i
  obtain ⟨p, c, rfl⟩ : ∃ (p : Fin 10000) (c : Fin 128), i = ix2 p c := ⟨i 0, i 1, eq_ix2 i⟩
  rw [val_main_v2_apply, Cert.Gcn.G_apply, val_lin]
  refine Finset.sum_congr rfl fun j _ => ?_
  rw [agg_lidx, agg_ridx]

/-- The reference run's result term, as a function of the three argument arrays, is the layer. -/
theorem ref_eq_G (x : FVec Ideal S10000x128 .f32) (adj : FVec Ideal S10000x10000 .f32) (w : FVec Ideal S128x128 .f32) :
    Host.dotGeneral (F := Ideal) (φ₁ := .f32) (φ₂ := .f32) dot_S10000x10000_S10000x128_S10000x128_1_0_0_1_n_n none adj
        (Host.dotGeneral (F := Ideal) (φ₁ := .f32) (φ₂ := .f32) dot_S10000x128_S128x128_S10000x128_1_0_0_1_n_n none x
          (transpose S128x128 [1, 0] w transposes_S128x128_S128x128_1_0))
      = Cert.Gcn.G x adj w :=
  (val_main_v2_eq (F := Ideal) x adj w).trans (val_eq_G x adj w)

end Cert.ReferenceIdeal.RefValue

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibTransposedMatmul.lean ====
/-
  A matrix product against a transposed right operand, read at an entry.

  For the dimension numbers "contract the left operand's second axis with the right operand's SECOND axis" an `[M, K]` by
  `[N, K]` product, accumulated into a zero array, has at row `p` and column `c` the entry `∑ k, W p k · X c k` over the
  extended reals (the product `W · Xᵀ`): the contraction position is its one coordinate `k`, the left operand is read at
  `(p, k)` and the right one at `(c, k)`. The same reading holds of a host `dot_general` with those dimension numbers.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction position. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction position. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The sum over the contraction positions, re-indexed by the one coordinate. -/
theorem sum_contr {φ₁ φ₂ : FTy} (W : FVec Ideal ⟨2, ![M, K]⟩ φ₁) (X : FVec Ideal ⟨2, ![N, K]⟩ φ₂) (p : Fin M) (c : Fin N) :
    (∑ q : (DotDims.transposedRhs M K N).contr.Idx,
        W ((DotDims.transposedRhs M K N).lhsIdx (ix2 p c) q) * X ((DotDims.transposedRhs M K N).rhsIdx (ix2 p c) q))
      = ∑ k : Fin K, W (ix2 p k) * X (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row M K N _ _
      | ⟨1, _⟩ => exact (rhs_col M K N _ _).trans hk)
  rw [el, er]

/-- A kernel's product against a transposed right operand into a zero accumulator, at an entry. -/
theorem matmul_zero_apply {φ₁ φ₂ : FTy} (prec : Option ContractPrecision) (W : FVec Ideal ⟨2, ![M, K]⟩ φ₁)
    (X : FVec Ideal ⟨2, ![N, K]⟩ φ₂) (p : Fin M) (c : Fin N) :
    matmul (DotDims.transposedRhs M K N) prec W X (constant (F := Ideal) ⟨2, ![M, N]⟩ .f32 0x00000000#32) (ix2 p c)
      = ∑ k : Fin K, W (ix2 p k) * X (ix2 c k) := by
  simp only [matmul]
  rw [Ideal.matmul_constant_zero_apply]
  exact sum_contr M K N W X p c

/-- A host product against a transposed right operand, at an entry. -/
theorem dotGeneral_apply {φ₁ φ₂ : FTy} (prec : Option ContractPrecision) (W : FVec Ideal ⟨2, ![M, K]⟩ φ₁)
    (X : FVec Ideal ⟨2, ![N, K]⟩ φ₂) (p : Fin M) (c : Fin N) :
    Host.dotGeneral (DotDims.transposedRhs M K N) prec W X (ix2 p c) = ∑ k : Fin K, W (ix2 p k) * X (ix2 c k) := by
  simp only [Host.dotGeneral]
  rw [Ideal.dotGeneral_apply]
  exact sum_contr M K N W X p c

end Cert.LibTransposedMatmul

end
-- ==== Proof.PayIdeal.lean ====
/-
  The kernel body's two products, read at an entry.

  The first payload multiplies the features by the weights contracted on the weights' second axis, which is the linear
  map `x · wᵀ`; the cast that follows it is between equal shapes and changes nothing. The second payload multiplies a
  block of 560 rows of the adjacency array by a whole 10000 by 128 array, contracting the block's second axis with that
  array's first. Both accumulate into a zero array.
-/
import proofs.«101243_g89764816486619_cont_sun_m_1084_16_alg».proof.Proof.Spec
import proofs.«101243_g89764816486619_cont_sun_m_1084_16_alg».proof.Proof.Gen.KernelIdeal.Skeleton
import proofs.«101243_g89764816486619_cont_sun_m_1084_16_alg».proof.Proof.LibPlainMatmul
import proofs.«101243_g89764816486619_cont_sun_m_1084_16_alg».proof.Proof.LibTransposedMatmul
import Idealize.ShloMosaic.Lib.Pipeline.Value

noncomputable section

namespace Cert.KernelIdeal.PayIdeal

open Cert.KernelIdeal Cert.KernelIdeal.Gen Idealize.ShloMosaic Idealize.ShloMosaic.ValueIdx
open scoped BigOperators

/-- The first product's dimension numbers: the right operand contracted on its second axis. -/
theorem dims_lin : dot_S10000x128_S128x128_S10000x128_1_1_0_0_n_n = DotDims.transposedRhs 10000 128 128 := rfl

/-- The second product's dimension numbers: rows by contraction times contraction by columns. -/
theorem dims_agg : dot_S560x10000_S10000x128_S560x128_1_0_0_1_n_n = DotDims.plain 560 10000 128 := rfl

/-- The first payload as one term: the product, cast to its own shape. -/
theorem pay1_term (x : Vec Ideal S10000x128 .f32) (w : Vec Ideal S128x128 .f32) :
    k0_pay1 (F := Ideal) x w
      = shapeCast S10000x128
          (matmul (F := Ideal) (φ₁ := .f32) (φ₂ := .f32) dot_S10000x128_S128x128_S10000x128_1_1_0_0_n_n none x w
            (constant (F := Ideal) S10000x128 .f32 0x00000000#32))
          shapeCasts_S10000x128_S10000x128 := rfl

/-- The second payload as one term: the product. -/
theorem pay2_term (a : Vec Ideal S560x10000 .f32) (h : Vec Ideal S10000x128 .f32) :
    k0_pay2 (F := Ideal) a h
      = matmul (F := Ideal) (φ₁ := .f32) (φ₂ := .f32) dot_S560x10000_S10000x128_S560x128_1_0_0_1_n_n none a h
          (constant (F := Ideal) S560x128 .f32 0x00000000#32) := rfl

/-- The first payload is the linear map `x · wᵀ`. -/
theorem pay1_eq (x : Vec Ideal S10000x128 .f32) (w : Vec Ideal S128x128 .f32) :
    k0_pay1 (F := Ideal) x w = Cert.Gcn.lin x w := by
  funext i
  obtain ⟨j, c, rfl⟩ : ∃ (j : Fin 10000) (c : Fin 128), i = ix2 j c := ⟨i 0, i 1, eq_ix2 i⟩
  rw [pay1_term, shapeCast_self, dims_lin]
  exact (Cert.LibTransposedMatmul.matmul_zero_apply 10000 128 128 (φ₁ := .f32) (φ₂ := .f32) none x w j c).trans
    (Cert.Gcn.lin_apply x w j c).symm

/-- The second payload is the block product. -/
theorem pay2_eq (a : Vec Ideal S560x10000 .f32) (h : Vec Ideal S10000x128 .f32) :
    k0_pay2 (F := Ideal) a h = Cert.Gcn.blockMul a h := by
  funext i
  obtain ⟨r, c, rfl⟩ : ∃ (r : Fin 560) (c : Fin 128), i = ix2 r c := ⟨i 0, i 1, eq_ix2 i⟩
  rw [pay2_term, dims_agg]
  exact (Cert.LibPlainMatmul.matmul_zero_apply 560 10000 128 (φ₁ := .f32) (φ₂ := .f32) none a h r c).trans
    (Cert.Gcn.blockMul_apply a h r c).symm

end Cert.KernelIdeal.PayIdeal

end
-- ==== Proof.KVBlocks.lean ====
/-
  The output's row blocks and the adjacency array's row blocks, as arithmetic on rows.

  The grid has eighteen points. At point t the adjacency window holds rows 560·t … of the adjacency array, all 10000
  columns, and the output window rows 560·t … of the result, all 128 columns; the two resident windows hold their whole
  arrays at every point. Eighteen blocks of 560 rows are 10080 rows, eighty more than the arrays have, so at the last
  point the two moving windows are cut to 480 rows. What is proved here: an element (r, j) of a moved row of the
  adjacency block is the array's element (560·t + r, j); an element (r, c) of the output block sits in the result at
  (560·t + r, c); the resident blocks are the arrays; and every row of the result lies in the block of the point
  (row / 560).
-/
import proofs.«101243_g89764816486619_cont_sun_m_1084_16_alg».proof.Proof.Gen.KernelIdeal.Frame
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-! ## The index maps and the cuts, decided over the grid -/

/-- The block indices: the resident windows stay at block (0, 0); the two moving windows are at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The cuts: the two moving windows are cut alike on the rows and never on the columns; 560 rows move at the first
    seventeen points and 480 at the last. -/
theorem cut_facts : ∀ t : Fin cfg0.N,
    win0_2.xsize (grid0.coords t) (0 : Fin 2) = win0_3.xsize (grid0.coords t) (0 : Fin 2)
    ∧ win0_2.xsize (grid0.coords t) (1 : Fin 2) = 10000
    ∧ win0_3.xsize (grid0.coords t) (1 : Fin 2) = 128
    ∧ ((t.val < 17 ∧ win0_3.xsize (grid0.coords t) (0 : Fin 2) = 560)
        ∨ (t.val = 17 ∧ win0_3.xsize (grid0.coords t) (0 : Fin 2) = 480)) :=
  (by decide +kernel : ∀ t : Fin grid0.N, _)

/-! ## The resident windows' blocks are the arrays -/

/-- The features' block at any point is the whole feature array. -/
theorem iblk0_whole (c : Dev nD) (t : Fin cfg0.N) :
    (iblk m c 0 t : S10000x128.Idx → Elt F .f32) = V m c main_arg0 := by
  obtain ⟨e0, e1, -⟩ := idx_facts t
  funext j
  unfold iblk
  rw [View.read_apply]
  show V m c main_arg0 _ = V m c main_arg0 j
  congr 1
  refine funext fun (a : Fin 2) => Fin.ext ?_
  match a with
  | ⟨0, _⟩ => show win0_0.index t (0 : Fin 2) * 10000 + 1 * (j (0 : Fin 2)).val = (j (0 : Fin 2)).val; rw [e0]; omega
  | ⟨1, _⟩ => show win0_0.index t (1 : Fin 2) * 128 + 1 * (j (1 : Fin 2)).val = (j (1 : Fin 2)).val; rw [e1]; omega

/-- The weights' block at any point is the whole weight array. -/
theorem iblk1_whole (c : Dev nD) (t : Fin cfg0.N) :
    (iblk m c 1 t : S128x128.Idx → Elt F .f32) = V m c main_arg2 := by
  obtain ⟨-, -, e0, e1, -⟩ := idx_facts t
  funext j
  unfold iblk
  rw [View.read_apply]
  show V m c main_arg2 _ = V m c main_arg2 j
  congr 1
  refine funext fun (a : Fin 2) => Fin.ext ?_
  match a with
  | ⟨0, _⟩ => show win0_1.index t (0 : Fin 2) * 128 + 1 * (j (0 : Fin 2)).val = (j (0 : Fin 2)).val; rw [e0]; omega
  | ⟨1, _⟩ => show win0_1.index t (1 : Fin 2) * 128 + 1 * (j (1 : Fin 2)).val = (j (1 : Fin 2)).val; rw [e1]; omega

/-! ## The adjacency window's buffer on a moved row -/

/-- On a row r that the transfer at point t moves, the adjacency buffer holds row 560·t + r of the adjacency array,
    whatever it held before on the rows that are not moved. -/
theorem adj_fill_apply (c : Dev nD) (t : Fin cfg0.N) (d : S560x10000.Idx → Elt F .f32) (r : Fin 560) (j p : Fin 10000)
    (hr : r.val < win0_3.xsize (grid0.coords t) (0 : Fin 2)) (hp : p.val = t.val * 560 + r.val) :
    (cfg0.win 2).fill (cfg0.grid.coords t) d (iblk m c 2 t) (ix2 r j) = V m c main_arg1 (ix2 p j) := by
  obtain ⟨-, -, -, -, e0, e1, -⟩ := idx_facts t
  obtain ⟨x0, x1, -, -⟩ := cut_facts t
  have hmv : (cfg0.win 2).moved (cfg0.grid.coords t) (ix2 r j) = true :=
    ((cfg0.win 2).moved_iff _ _).mpr fun (a : Fin 2) => by
      match a with
      | ⟨0, _⟩ => show r.val < win0_2.xsize (grid0.coords t) (0 : Fin 2); rw [x0]; exact hr
      | ⟨1, _⟩ => show j.val < win0_2.xsize (grid0.coords t) (1 : Fin 2); rw [x1]; exact j.isLt
  unfold Window.fill
  rw [dif_pos hmv]
  unfold iblk
  rw [View.read_apply]
  show V m c main_arg1 _ = V m c main_arg1 (ix2 p j)
  congr 1
  refine funext fun (a : Fin 2) => Fin.ext ?_
  match a with
  | ⟨0, _⟩ => show win0_2.index t (0 : Fin 2) * 560 + 1 * r.val = p.val; rw [e0, hp]; omega
  | ⟨1, _⟩ => show win0_2.index t (1 : Fin 2) * 10000 + 1 * j.val = j.val; rw [e1]; omega

/-! ## The output window's block in the result -/

/-- An index of the part of the output block that point t writes back, by coordinates: row r below the cut, column c';
    it sits in the result at row 560·t + r, column c'. -/
theorem blk3_coords (t : Fin cfg0.N) (y : ((cfg0.win 3).xblock (cfg0.grid.coords t)).Idx) :
    ∃ (r : Fin 560) (c' : Fin 128) (p : Fin 10000),
      (cfg0.win 3).xinj (cfg0.grid.coords t) y = ix2 r c'
      ∧ r.val < win0_3.xsize (grid0.coords t) (0 : Fin 2)
      ∧ p.val = t.val * 560 + r.val
      ∧ ((cfg0.win 3).blk t).view.emb y = ix2 p c' := by
  obtain ⟨-, -, -, -, -, -, e0, e1⟩ := idx_facts t
  obtain ⟨-, -, x1, x0⟩ := cut_facts t
  have hN : cfg0.N = 18 := N_0
  have ht : t.val < cfg0.N := t.isLt
  have hy0 : (y (0 : Fin 2)).val < win0_3.xsize (grid0.coords t) (0 : Fin 2) := (y (0 : Fin 2)).isLt
  have hy1 : (y (1 : Fin 2)).val < win0_3.xsize (grid0.coords t) (1 : Fin 2) := (y (1 : Fin 2)).isLt
  rw [x1] at hy1
  refine ⟨⟨(y (0 : Fin 2)).val, by omega⟩, ⟨(y (1 : Fin 2)).val, hy1⟩, ⟨t.val * 560 + (y (0 : Fin 2)).val, by omega⟩,
    ?_, hy0, rfl, ?_⟩
  · refine funext fun (a : Fin 2) => Fin.ext ?_
    match a with
    | ⟨0, _⟩ => rfl
    | ⟨1, _⟩ => rfl
  · refine funext fun (a : Fin 2) => Fin.ext ?_
    match a with
    | ⟨0, _⟩ =>
      show win0_3.index t (0 : Fin 2) * 560 + 1 * (y (0 : Fin 2)).val = t.val * 560 + (y (0 : Fin 2)).val
      rw [e0]; omega
    | ⟨1, _⟩ =>
      show win0_3.index t (1 : Fin 2) * 128 + 1 * (y (1 : Fin 2)).val = (y (1 : Fin 2)).val
      rw [e1]; omega

/-! ## The output's blocks cover the result -/

/-- An index of the result is in point t's block iff on each axis its coordinate is within the block's moved range. -/
theorem mem_blk (t : Fin cfg0.N) (i : S10000x128.Idx) :
    i ∈ ((cfg0.win 3).blk t).view.set ↔ ∀ a : Fin 2, win0_3.index t a * S560x128.size a ≤ (i a).val
      ∧ (i a).val < win0_3.index t a * S560x128.size a + win0_3.xsize (grid0.coords t) a := by
  show i ∈ ((View.whole main_v0).slice (win0_3.rect t)).set ↔ _
  rw [View.set_slice_whole, Rect.mem_set_unit]
  exact Iff.rfl

/-- Every index of the result is in the block of the point (row / 560): rows 0 … 9519 in one of the first seventeen
    blocks of 560 rows, rows 9520 … 9999 in the last block's 480 rows. That point writes its block back. -/
theorem cover (i : S10000x128.Idx) :
    ∃ t : Fin cfg0.N, (cfg0.win 3).flush t = true ∧ i ∈ ((cfg0.win 3).blk t).view.set := by
  have hi0 : (i (0 : Fin 2)).val < 10000 := idx2_lt0 i
  have hi1 : (i (1 : Fin 2)).val < 128 := idx2_lt1 i
  have hN : cfg0.N = 18 := N_0
  obtain ⟨t, ht⟩ : ∃ t : Fin cfg0.N, t.val = (i (0 : Fin 2)).val / 560 := ⟨⟨(i (0 : Fin 2)).val / 560, by omega⟩, rfl⟩
  obtain ⟨-, -, -, -, -, -, e0, e1⟩ := idx_facts t
  obtain ⟨-, -, x1, x0⟩ := cut_facts t
  refine ⟨t, flush0_3 t, ?_⟩
  rw [mem_blk]
  intro a
  match a with
  | ⟨0, _⟩ =>
    show win0_3.index t (0 : Fin 2) * 560 ≤ (i (0 : Fin 2)).val
      ∧ (i (0 : Fin 2)).val < win0_3.index t (0 : Fin 2) * 560 + win0_3.xsize (grid0.coords t) (0 : Fin 2)
    rw [e0]; omega
  | ⟨1, _⟩ =>
    show win0_3.index t (1 : Fin 2) * 128 ≤ (i (1 : Fin 2)).val
      ∧ (i (1 : Fin 2)).val < win0_3.index t (1 : Fin 2) * 128 + win0_3.xsize (grid0.coords t) (1 : Fin 2)
    rw [e1, x1]; omega

end Cert.KernelIdeal.Val

end
-- ==== Proof.KernelValue.lean ====
/-
  The kernel's result at the ideal instance, from the output's blocks to the whole array.

  At every grid point the body leaves in the output window the product of the adjacency window's buffer with
  h = x · Wᵀ. A row of that product reads only the same row of the buffer, and on the rows the transfer moves the
  buffer holds the adjacency array's rows whatever it held elsewhere: so what a point writes back does not depend on
  the buffer's rows past the array's end, and is rows 560·t … of adj · (x · Wᵀ). The eighteen blocks, the last one cut
  to 480 rows, cover the result's 10000 rows: the result array ends holding adj · (x · Wᵀ).
-/
import proofs.«101243_g89764816486619_cont_sun_m_1084_16_alg».proof.Proof.KI.Body
import proofs.«101243_g89764816486619_cont_sun_m_1084_16_alg».proof.Proof.Spec
import proofs.«101243_g89764816486619_cont_sun_m_1084_16_alg».proof.Proof.PayIdeal
import proofs.«101243_g89764816486619_cont_sun_m_1084_16_alg».proof.Proof.KVBlocks
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The array the scratch buffer holds from the first point on is the linear map x · Wᵀ of the two argument arrays. -/
theorem hmat_eq (c : Dev nD) : hmat m c = Cert.Gcn.lin (V m c main_arg0) (V m c main_arg2) :=
  (PayIdeal.pay1_eq _ _).trans (congrArg₂ Cert.Gcn.lin (iblk0_whole m c t₀) (iblk1_whole m c t₀))

/-- ROW LOCALITY: on the rows that point t writes back, the product of the adjacency buffer with h does not depend on
    what the buffer holds on the rows the transfer does not move. -/
theorem hloc (c : Dev nD) (t : Fin cfg0.N) (d : S560x10000.Idx → Elt Ideal .f32) :
    (cfg0.win 3).cut (cfg0.grid.coords t) (k0_pay2 (adjBuf m c t d) (hmat m c))
      = (cfg0.win 3).cut (cfg0.grid.coords t) ((dats m 0 c).after 3 t) := by
  rw [after_3, PayIdeal.pay2_eq, PayIdeal.pay2_eq]
  funext y
  obtain ⟨r, c', p, hxy, hr, hp, -⟩ := blk3_coords t y
  show Cert.Gcn.blockMul (adjBuf m c t d) (hmat m c) ((cfg0.win 3).xinj (cfg0.grid.coords t) y)
    = Cert.Gcn.blockMul (adjBuf m c t _) (hmat m c) ((cfg0.win 3).xinj (cfg0.grid.coords t) y)
  rw [hxy]
  exact Cert.Gcn.blockMul_row _ _ _ r
    (fun j => (adj_fill_apply m c t d r j p hr hp).trans (adj_fill_apply m c t _ r j p hr hp).symm) c'

/-- WHAT POINT t WRITES BACK is its block of adj · (x · Wᵀ): entry (r, c') of the product of the adjacency buffer with
    h is the sum over the nodes j of adj (560·t + r, j) · (x · Wᵀ) (j, c'), the layer's entry (560·t + r, c'). -/
theorem flushed_eq (c : Dev nD) (t : Fin cfg0.N) :
    (dats m 0 c).flushed 3 t
      = ((cfg0.win 3).blk t).view.read (Elt Ideal) (Cert.Gcn.G (V m c main_arg0) (V m c main_arg1) (V m c main_arg2)) := by
  show (cfg0.win 3).cut (cfg0.grid.coords t) ((dats m 0 c).after 3 t) = _
  rw [after_3, PayIdeal.pay2_eq, hmat_eq]
  funext y
  obtain ⟨r, c', p, hxy, hr, hp, hemb⟩ := blk3_coords t y
  rw [View.read_apply]
  show Cert.Gcn.blockMul (adjBuf m c t _) (Cert.Gcn.lin (V m c main_arg0) (V m c main_arg2))
      ((cfg0.win 3).xinj (cfg0.grid.coords t) y)
    = Cert.Gcn.G (V m c main_arg0) (V m c main_arg1) (V m c main_arg2) (((cfg0.win 3).blk t).view.emb y)
  rw [hxy, hemb, Cert.Gcn.blockMul_apply, Cert.Gcn.G_apply]
  exact Finset.sum_congr rfl fun j _ =>
    congrArg (fun z : EReal => z * Cert.Gcn.lin (V m c main_arg0) (V m c main_arg2) (ix2 j c')) (adj_fill_apply m c t _ r j p hr hp)

/-- THE RESULT ARRAY after the run is the layer adj · (x · Wᵀ) of the three argument arrays. -/
theorem final_out (c : Dev nD) :
    (dats (F := Ideal) m 0 c).arrAt 3 cfg0.N = Cert.Gcn.G (V m c main_arg0) (V m c main_arg1) (V m c main_arg2) :=
  (dats m 0 c).arrAt_eq_of_cover 3 (Cert.Gcn.G (V m c main_arg0) (V m c main_arg1) (V m c main_arg2))
    (fun t _ => flushed_eq m c t) cover

end Cert.KernelIdeal.Val

end
-- ==== Proof.lean ====
/-
  out = adj · (x · Wᵀ) computed block by block against the same product computed whole.

  The kernel walks eighteen blocks of 560 rows of the adjacency matrix (the last one overhanging the 10000 rows by 80).
  At the first block it forms h = x · Wᵀ once, keeps it in a scratch buffer, and at every block stores the 560 × 128
  product of the block with h; only the rows inside the array are written back. The reference transposes W, forms
  x · Wᵀ and multiplies by the whole adjacency matrix. Over the extended reals both results are, at row p and column c,
  ∑ j adj(p, j) · ∑ k x(j, k) · W(c, k): the same nested sum, term for term, so no law beyond reading each product as
  its sum is used and the inputs' finiteness is never opened. A row of a block's product depends only on that row of
  the block, which is why the 80 rows the last transfer does not fill never reach the output.

  The three frames: the kernel at either instance runs to its end, faults nowhere and writes no input array (its
  body is run at the first point and at a later point; the scratch buffer's contents are the region's invariant);
  the reference's run is its three host operations. No operation was rewritten by the idealization, so there is
  nothing to preserve.
-/
import proofs.«101243_g89764816486619_cont_sun_m_1084_16_alg».proof.Defs
import proofs.«101243_g89764816486619_cont_sun_m_1084_16_alg».proof.Proof.Gen.Kernel
import proofs.«101243_g89764816486619_cont_sun_m_1084_16_alg».proof.Proof.Gen.KernelIdeal
import proofs.«101243_g89764816486619_cont_sun_m_1084_16_alg».proof.Proof.Gen.ReferenceIdeal
import proofs.«101243_g89764816486619_cont_sun_m_1084_16_alg».proof.Proof.Gen.Pre_finite_inputs
import proofs.«101243_g89764816486619_cont_sun_m_1084_16_alg».proof.Proof.Gen.ReferenceIdeal.Run
import proofs.«101243_g89764816486619_cont_sun_m_1084_16_alg».proof.Proof.Gen.ReferenceIdeal.Read
import proofs.«101243_g89764816486619_cont_sun_m_1084_16_alg».proof.Proof.KB.Run
import proofs.«101243_g89764816486619_cont_sun_m_1084_16_alg».proof.Proof.KI.Run
import proofs.«101243_g89764816486619_cont_sun_m_1084_16_alg».proof.Proof.RefValue
import proofs.«101243_g89764816486619_cont_sun_m_1084_16_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen Cert.KernelIdeal.Hand in
/-- Both programs end with the result array at G of the three argument arrays. -/
theorem algebraic : Cert.algebraic_KernelIdeal_ReferenceIdeal := by
  intro m ρ m' ρ' _ hagree
  refine ⟨fun c => Cert.Gcn.G (V m c main_arg0) (V m c main_arg1) (V m c main_arg2), ?_, ?_⟩
  · exact (θ_run Cert.KernelIdeal.defs _ _).mono
      (fun _ h c => ⟨((h c).1 3).trans (Cert.KernelIdeal.Val.final_out m c),
        ((h c).1 0).trans (((dats m 0 c).arrAt_in 0 rfl _).trans ((A_eq m c 0).trans (V_main_arg0 m c))),
        ((h c).1 2).trans (((dats m 0 c).arrAt_in 2 rfl _).trans ((A_eq m c 2).trans (V_main_arg1 m c))),
        ((h c).1 1).trans (((dats m 0 c).arrAt_in 1 rfl _).trans ((A_eq m c 1).trans (V_main_arg2 m c)))⟩)
      (run_exact (F := Ideal) m ρ (Cert.KernelIdeal.Val.hloc m))
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.RefValue.ref_eq_G _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
